-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1910 : Shape := ⟨3, ![8, 4096, 1910]⟩
abbrev S2x2254649 : Shape := ⟨2, ![2, 2254649]⟩
abbrev S2254649 : Shape := ⟨1, ![2254649]⟩
abbrev S_ : Shape := ⟨0, ![]⟩

class Facts : Prop where
  bcast_S_S8x4096x1910 : S_.BroadcastsInDim S8x4096x1910 (![] : Fin 0 → Fin S8x4096x1910.rank)
  reducesTo_S8x4096x1910_S_d0_1_2 : S8x4096x1910.ReducesTo [0, 1, 2] S_
  h_S_ : 0 < S_.numel
  bcast_S_S2254649 : S_.BroadcastsInDim S2254649 (![] : Fin 0 → Fin S2254649.rank)
  reducesTo_S2254649_S_d0 : S2254649.ReducesTo [0] S_

variable [Facts]

def fn {F : FTy → Type} [FloatOps F] (main_arg0 : FVec F S8x4096x1910 .f32) (main_arg1 : IVec S2x2254649 32) (main_arg2 : FVec F S2254649 .f32) : IVec S_ 1 :=
  let main_v0 : FVec F S8x4096x1910 .f32 := Host.absf main_arg0
  let main_cst : FVec F S_ .f32 := constant S_ .f32 0x7F800000#32
  let main_v1 : FVec F S8x4096x1910 .f32 := broadcastInDim S8x4096x1910 ![] bcast_S_S8x4096x1910 main_cst
  let main_v2 : IVec S8x4096x1910 1 := cmpf .olt main_v0 main_v1
  let main_c : IVec S_ 1 := constantI S_ 1 1#1
  let main_v3 : IVec S_ 1 := (fun x v => Host.reduce IntOp.andi x v reducesTo_S8x4096x1910_S_d0_1_2 h_S_) main_v2 main_c
  let main_v4 : FVec F S2254649 .f32 := Host.absf main_arg2
  let main_cst_0 : FVec F S_ .f32 := constant S_ .f32 0x7F800000#32
  let main_v5 : FVec F S2254649 .f32 := broadcastInDim S2254649 ![] bcast_S_S2254649 main_cst_0
  let main_v6 : IVec S2254649 1 := cmpf .olt main_v4 main_v5
  let main_c_1 : IVec S_ 1 := constantI S_ 1 1#1
  let main_v7 : IVec S_ 1 := (fun x v => Host.reduce IntOp.andi x v reducesTo_S2254649_S_d0 h_S_) main_v6 main_c_1
  let main_v8 : IVec S_ 1 := andi main_v3 main_v7
  main_v8
-- ==== Kernel.lean ====
abbrev S8x4096x1910 : Shape := ⟨3, ![8, 4096, 1910]⟩
abbrev S2x2254649 : Shape := ⟨2, ![2, 2254649]⟩
abbrev S2254649 : Shape := ⟨1, ![2254649]⟩
abbrev S_ : Shape := ⟨0, ![]⟩
abbrev S1910x1910 : Shape := ⟨2, ![1910, 1910]⟩
abbrev S1x2254649 : Shape := ⟨2, ![1, 2254649]⟩
abbrev S2254649x1 : Shape := ⟨2, ![2254649, 1]⟩
abbrev S2254649x2 : Shape := ⟨2, ![2254649, 2]⟩
abbrev S32768x1910 : Shape := ⟨2, ![32768, 1910]⟩
abbrev S512x1910 : Shape := ⟨2, ![512, 1910]⟩

abbrev nBuf : Space → Nat
  | .hbm => 31
  | .vmem => 5
  | .smem => 0
  | _ => 0

abbrev bufTy : (tb : Table) → Fin (tcTables nBuf tb) → BufTy
  | .hbm, ⟨0, _⟩ => ⟨S8x4096x1910, .f32⟩
  | .hbm, ⟨1, _⟩ => ⟨S2x2254649, .i32⟩
  | .hbm, ⟨2, _⟩ => ⟨S2254649, .f32⟩
  | .hbm, ⟨3, _⟩ => ⟨S_, .f32⟩
  | .hbm, ⟨4, _⟩ => ⟨S1910x1910, .f32⟩
  | .hbm, ⟨5, _⟩ => ⟨S1x2254649, .i32⟩
  | .hbm, ⟨6, _⟩ => ⟨S2254649, .i32⟩
  | .hbm, ⟨7, _⟩ => ⟨S1x2254649, .i32⟩
  | .hbm, ⟨8, _⟩ => ⟨S2254649, .i32⟩
  | .hbm, ⟨9, _⟩ => ⟨S_, .i32⟩
  | .hbm, ⟨10, _⟩ => ⟨S2254649, .i32⟩
  | .hbm, ⟨11, _⟩ => ⟨S2254649, .i1⟩
  | .hbm, ⟨12, _⟩ => ⟨S_, .i32⟩
  | .hbm, ⟨13, _⟩ => ⟨S2254649, .i32⟩
  | .hbm, ⟨14, _⟩ => ⟨S2254649, .i32⟩
  | .hbm, ⟨15, _⟩ => ⟨S2254649, .i32⟩
  | .hbm, ⟨16, _⟩ => ⟨S_, .i32⟩
  | .hbm, ⟨17, _⟩ => ⟨S2254649, .i32⟩
  | .hbm, ⟨18, _⟩ => ⟨S2254649, .i1⟩
  | .hbm, ⟨19, _⟩ => ⟨S_, .i32⟩
  | .hbm, ⟨20, _⟩ => ⟨S2254649, .i32⟩
  | .hbm, ⟨21, _⟩ => ⟨S2254649, .i32⟩
  | .hbm, ⟨22, _⟩ => ⟨S2254649, .i32⟩
  | .hbm, ⟨23, _⟩ => ⟨S2254649x1, .i32⟩
  | .hbm, ⟨24, _⟩ => ⟨S2254649x1, .i32⟩
  | .hbm, ⟨25, _⟩ => ⟨S2254649x2, .i32⟩
  | .hbm, ⟨26, _⟩ => ⟨S1910x1910, .f32⟩
  | .hbm, ⟨27, _⟩ => ⟨S1910x1910, .bf16⟩
  | .hbm, ⟨28, _⟩ => ⟨S32768x1910, .f32⟩
  | .hbm, ⟨29, _⟩ => ⟨S32768x1910, .f32⟩
  | .hbm, ⟨30, _⟩ => ⟨S8x4096x1910, .f32⟩
  | .local _ .vmem, ⟨0, _⟩ => ⟨S512x1910, .f32⟩
  | .local _ .vmem, ⟨1, _⟩ => ⟨S512x1910, .f32⟩
  | .local _ .vmem, ⟨2, _⟩ => ⟨S1910x1910, .bf16⟩
  | .local _ .vmem, ⟨3, _⟩ => ⟨S512x1910, .f32⟩
  | .local _ .vmem, ⟨4, _⟩ => ⟨S512x1910, .f32⟩
  | _, _ => ⟨S8x4096x1910, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1910 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1910x1910 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1910 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1910x1910 : S_.BroadcastsInDim S1910x1910 (![] : Fin 0 → Fin S1910x1910.rank)
  slices_S2x2254649_S1x2254649_1_0 : S2x2254649.Slices ![1, 0] S1x2254649
  shapeCasts_S1x2254649_S2254649 : S1x2254649.ShapeCasts S2254649
  slices_S2x2254649_S1x2254649_0_0 : S2x2254649.Slices ![0, 0] S1x2254649
  bcast_S_S2254649 : S_.BroadcastsInDim S2254649 (![] : Fin 0 → Fin S2254649.rank)
  bcast_S2254649_S2254649x1_0 : S2254649.BroadcastsInDim S2254649x1 (![0] : Fin 1 → Fin S2254649x1.rank)
  concatenates_S2254649x1_S2254649x1_S2254649x2_d1 : Shape.Concatenates [S2254649x1, S2254649x1] S2254649x2 1
  bitsLt_bf16_f32 : FTy.bits .bf16 < FTy.bits .f32
  shapeCasts_S8x4096x1910_S32768x1910 : S8x4096x1910.ShapeCasts S32768x1910
  inb_S512x1910_S512x1910_0_0 : ∀ a, (![0, 0] : Fin 2 → Nat) a + S512x1910.size a ≤ S512x1910.size a
  h_S512x1910 : 0 < S512x1910.numel
  shapeCasts_S512x1910_S512x1910 : S512x1910.ShapeCasts S512x1910
  inb_S1910x1910_S1910x1910_0_0 : ∀ a, (![0, 0] : Fin 2 → Nat) a + S1910x1910.size a ≤ S1910x1910.size a
  h_S1910x1910 : 0 < S1910x1910.numel
  shapeCasts_S1910x1910_S1910x1910 : S1910x1910.ShapeCasts S1910x1910
  shapeCasts_S32768x1910_S8x4096x1910 : S32768x1910.ShapeCasts S8x4096x1910
  scatter_S1910x1910_S2254649x2_S2254649_n_01_01_1_wf : ScatterDims.WF S1910x1910 S2254649x2 S2254649 [] [0, 1] [0, 1] 1
  dot_S512x1910_S1910x1910_S512x1910_1_0_0_1_n_n_wf : DotDims.WF S512x1910 S1910x1910 S512x1910 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1910.size a ≤ S32768x1910.size a
  hwx0_0 : ∀ i : grid0.Coords, EltTy.bits .f32 = 32 ∨ (Rect.block (s := S32768x1910) S512x1910.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1910x1910.size a ≤ S1910x1910.size a
  hwx0_1 : ∀ i : grid0.Coords, EltTy.bits .bf16 = 32 ∨ (Rect.block (s := S1910x1910) S1910x1910.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1910.size a ≤ S32768x1910.size a
  hwx0_2 : ∀ i : grid0.Coords, EltTy.bits .f32 = 32 ∨ (Rect.block (s := S32768x1910) S512x1910.size (cc0_transform_2 i) (hinb0_2 i)).WholeWords (EltTy.packing .f32)

variable [Facts₀]

def scatter_S1910x1910_S2254649x2_S2254649_n_01_01_1 : ScatterDims S1910x1910 S2254649x2 S2254649 where
  updateWindowDims := []
  insertedWindowDims := [0, 1]
  scatterDimsToOperandDims := [0, 1]
  indexVectorDim := 1
  wf := scatter_S1910x1910_S2254649x2_S2254649_n_01_01_1_wf
def dot_S512x1910_S1910x1910_S512x1910_1_0_0_1_n_n : DotDims S512x1910 S1910x1910 S512x1910 where
  lhsContracting := [1]
  rhsContracting := [0]
  lhsNonContracting := [0]
  rhsNonContracting := [1]
  lhsBatch := []
  rhsBatch := []
  wf := dot_S512x1910_S1910x1910_S512x1910_1_0_0_1_n_n_wf

abbrev win0_0 : Pipeline.Window sig grid0 :=
  Pipeline.Window.ofSpec (Memref.whole main_v20) S512x1910.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1910x1910.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x1910.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1910 : Shape := ⟨3, ![8, 4096, 1910]⟩
abbrev S2x2254649 : Shape := ⟨2, ![2, 2254649]⟩
abbrev S2254649 : Shape := ⟨1, ![2254649]⟩
abbrev S_ : Shape := ⟨0, ![]⟩
abbrev S1910x1910 : Shape := ⟨2, ![1910, 1910]⟩
abbrev S1x2254649 : Shape := ⟨2, ![1, 2254649]⟩
abbrev S2254649x1 : Shape := ⟨2, ![2254649, 1]⟩
abbrev S2254649x2 : Shape := ⟨2, ![2254649, 2]⟩
abbrev S32768x1910 : Shape := ⟨2, ![32768, 1910]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1910, .f32⟩
  | .hbm, ⟨1, _⟩ => ⟨S2x2254649, .i32⟩
  | .hbm, ⟨2, _⟩ => ⟨S2254649, .f32⟩
  | .hbm, ⟨3, _⟩ => ⟨S_, .f32⟩
  | .hbm, ⟨4, _⟩ => ⟨S1910x1910, .f32⟩
  | .hbm, ⟨5, _⟩ => ⟨S1x2254649, .i32⟩
  | .hbm, ⟨6, _⟩ => ⟨S2254649, .i32⟩
  | .hbm, ⟨7, _⟩ => ⟨S1x2254649, .i32⟩
  | .hbm, ⟨8, _⟩ => ⟨S2254649, .i32⟩
  | .hbm, ⟨9, _⟩ => ⟨S_, .i32⟩
  | .hbm, ⟨10, _⟩ => ⟨S2254649, .i32⟩
  | .hbm, ⟨11, _⟩ => ⟨S2254649, .i1⟩
  | .hbm, ⟨12, _⟩ => ⟨S_, .i32⟩
  | .hbm, ⟨13, _⟩ => ⟨S2254649, .i32⟩
  | .hbm, ⟨14, _⟩ => ⟨S2254649, .i32⟩
  | .hbm, ⟨15, _⟩ => ⟨S2254649, .i32⟩
  | .hbm, ⟨16, _⟩ => ⟨S_, .i32⟩
  | .hbm, ⟨17, _⟩ => ⟨S2254649, .i32⟩
  | .hbm, ⟨18, _⟩ => ⟨S2254649, .i1⟩
  | .hbm, ⟨19, _⟩ => ⟨S_, .i32⟩
  | .hbm, ⟨20, _⟩ => ⟨S2254649, .i32⟩
  | .hbm, ⟨21, _⟩ => ⟨S2254649, .i32⟩
  | .hbm, ⟨22, _⟩ => ⟨S2254649, .i32⟩
  | .hbm, ⟨23, _⟩ => ⟨S2254649x1, .i32⟩
  | .hbm, ⟨24, _⟩ => ⟨S2254649x1, .i32⟩
  | .hbm, ⟨25, _⟩ => ⟨S2254649x2, .i32⟩
  | .hbm, ⟨26, _⟩ => ⟨S1910x1910, .f32⟩
  | .hbm, ⟨27, _⟩ => ⟨S32768x1910, .f32⟩
  | .hbm, ⟨28, _⟩ => ⟨S1910x1910, .f32⟩
  | .hbm, ⟨29, _⟩ => ⟨S32768x1910, .f32⟩
  | .hbm, ⟨30, _⟩ => ⟨S_, .f32⟩
  | .hbm, ⟨31, _⟩ => ⟨S32768x1910, .f32⟩
  | .hbm, ⟨32, _⟩ => ⟨S32768x1910, .f32⟩
  | .hbm, ⟨33, _⟩ => ⟨S_, .f32⟩
  | .hbm, ⟨34, _⟩ => ⟨S32768x1910, .f32⟩
  | .hbm, ⟨35, _⟩ => ⟨S32768x1910, .f32⟩
  | .hbm, ⟨36, _⟩ => ⟨S32768x1910, .f32⟩
  | .hbm, ⟨37, _⟩ => ⟨S8x4096x1910, .f32⟩
  | _, _ => ⟨S8x4096x1910, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S1910x1910 : S_.BroadcastsInDim S1910x1910 (![] : Fin 0 → Fin S1910x1910.rank)
  slices_S2x2254649_S1x2254649_0_0 : S2x2254649.Slices ![0, 0] S1x2254649
  shapeCasts_S1x2254649_S2254649 : S1x2254649.ShapeCasts S2254649
  slices_S2x2254649_S1x2254649_1_0 : S2x2254649.Slices ![1, 0] S1x2254649
  bcast_S_S2254649 : S_.BroadcastsInDim S2254649 (![] : Fin 0 → Fin S2254649.rank)
  bcast_S2254649_S2254649x1_0 : S2254649.BroadcastsInDim S2254649x1 (![0] : Fin 1 → Fin S2254649x1.rank)
  concatenates_S2254649x1_S2254649x1_S2254649x2_d1 : Shape.Concatenates [S2254649x1, S2254649x1] S2254649x2 1
  shapeCasts_S8x4096x1910_S32768x1910 : S8x4096x1910.ShapeCasts S32768x1910
  transposes_S1910x1910_S1910x1910_1_0 : S1910x1910.Transposes [1, 0] S1910x1910
  bcast_S_S32768x1910 : S_.BroadcastsInDim S32768x1910 (![] : Fin 0 → Fin S32768x1910.rank)
  shapeCasts_S32768x1910_S8x4096x1910 : S32768x1910.ShapeCasts S8x4096x1910
  scatter_S1910x1910_S2254649x2_S2254649_n_01_01_1_wf : ScatterDims.WF S1910x1910 S2254649x2 S2254649 [] [0, 1] [0, 1] 1
  dot_S32768x1910_S1910x1910_S32768x1910_1_0_0_1_n_n_wf : DotDims.WF S32768x1910 S1910x1910 S32768x1910 [1] [0] [0] [1] [] []

variable [Facts₀]

def scatter_S1910x1910_S2254649x2_S2254649_n_01_01_1 : ScatterDims S1910x1910 S2254649x2 S2254649 where
  updateWindowDims := []
  insertedWindowDims := [0, 1]
  scatterDimsToOperandDims := [0, 1]
  indexVectorDim := 1
  wf := scatter_S1910x1910_S2254649x2_S2254649_n_01_01_1_wf
def dot_S32768x1910_S1910x1910_S32768x1910_1_0_0_1_n_n : DotDims S32768x1910 S1910x1910 S32768x1910 where
  lhsContracting := [1]
  rhsContracting := [0]
  lhsNonContracting := [0]
  rhsNonContracting := [1]
  lhsBatch := []
  rhsBatch := []
  wf := dot_S32768x1910_S1910x1910_S32768x1910_1_0_0_1_n_n_wf

class Facts : Prop extends Facts₀ where

variable [Facts]
-- ==== Proof.FfnSpec.lean ====
/-
  The feed-forward layer both programs compute, as one function of the token rows and the (transposed) weight matrix:

      out[r, n] = ρ · x[r, n] + π · Σ_k x[r, k] · wT[k, n]

  over the extended reals, `x` the 32768 token rows of width 1910, `wT` the 1910 × 1910 matrix whose column `n`
  holds the weights of output feature `n`. The residual scale `ρ` and the product scale `π` are the two float
  words both programs carry; they are never evaluated, only compared word for word.
-/
import Idealize.ShloMosaic.PureOps.Ideal
import Idealize.ShloMosaic.Lib.ValueIdx

noncomputable section

open scoped BigOperators

namespace Cert.FfnSpec

open Idealize.ShloMosaic Idealize.ShloMosaic.ValueIdx

/-- The token rows. -/
abbrev SX : Shape := ⟨2, ![32768, 1910]⟩
/-- The weight matrix. -/
abbrev SW : Shape := ⟨2, ![1910, 1910]⟩

/-- The residual scale, as its float word. -/
def resScale : EReal := Ideal.ofBits .f32 0x3F1E377A#32
/-- The product scale, as its float word. -/
def prodScale : EReal := Ideal.ofBits .f32 0x3EC3910D#32

/-- The layer at token row `r` and output feature `n`. -/
def ffnAt (x : SX.Idx → EReal) (wT : SW.Idx → EReal) (r : Fin 32768) (n : Fin 1910) : EReal :=
  resScale * x (ix2 r n) + prodScale * ∑ k : Fin 1910, x (ix2 r k) * wT (ix2 k n)

/-- The layer as a whole array. -/
def ffn (x : SX.Idx → EReal) (wT : SW.Idx → EReal) : SX.Idx → EReal := fun i => ffnAt x wT (i 0) (i 1)

theorem ffn_apply (x : SX.Idx → EReal) (wT : SW.Idx → EReal) (r : Fin 32768) (n : Fin 1910) :
    ffn x wT (ix2 r n) = ffnAt x wT r n := rfl

end Cert.FfnSpec

end
-- ==== Proof.BodyValue.lean ====
/-
  What the kernel body stores, read at one element: from a block of 512 token rows `xb` and the whole weight
  matrix `w` the body stores, at row `r` of the block and output feature `n`,

      ρ · xb[r, n] + π · Σ_k xb[r, k] · w[k, n].

  The narrowing of the rows to the matrix unit's input format is the identity on the extended reals, the shape casts
  are between equal shapes, and the matrix product into the zero accumulator is the plain sum over the contracted axis.
-/
import proofs.«136527_j56650618634409_1_alg».proof.Proof.Gen.KernelIdeal.Skeleton
import proofs.«136527_j56650618634409_1_alg».proof.Proof.FfnSpec
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.FfnSpec

/-! The operand indices of the body's matrix product at output element `i` and contraction index `q`: the left
    operand is read at (row of `i`, `q`), the right at (`q`, column of `i`). -/
theorem lhs_row (i : S512x1910.Idx) (q : dot_S512x1910_S1910x1910_S512x1910_1_0_0_1_n_n.contr.Idx) :
    (dot_S512x1910_S1910x1910_S512x1910_1_0_0_1_n_n.lhsIdx i q 0).val = (i 0).val := by
  unfold DotDims.lhsIdx
  rw [dif_neg (show ¬(0 : Fin S512x1910.rank) ∈ dot_S512x1910_S1910x1910_S512x1910_1_0_0_1_n_n.lhsBatch by decide),
    dif_pos (show (0 : Fin S512x1910.rank) ∈ dot_S512x1910_S1910x1910_S512x1910_1_0_0_1_n_n.lhsNonContracting by decide)]
  rfl
theorem lhs_col (i : S512x1910.Idx) (q : dot_S512x1910_S1910x1910_S512x1910_1_0_0_1_n_n.contr.Idx) :
    (dot_S512x1910_S1910x1910_S512x1910_1_0_0_1_n_n.lhsIdx i q 1).val = (q ⟨0, by decide⟩).val :=
  dot_S512x1910_S1910x1910_S512x1910_1_0_0_1_n_n.lhsIdx_val_of_single rfl i q
theorem rhs_row (i : S512x1910.Idx) (q : dot_S512x1910_S1910x1910_S512x1910_1_0_0_1_n_n.contr.Idx) :
    (dot_S512x1910_S1910x1910_S512x1910_1_0_0_1_n_n.rhsIdx i q 0).val = (q ⟨0, by decide⟩).val :=
  dot_S512x1910_S1910x1910_S512x1910_1_0_0_1_n_n.rhsIdx_val_of_single rfl i q
theorem rhs_col (i : S512x1910.Idx) (q : dot_S512x1910_S1910x1910_S512x1910_1_0_0_1_n_n.contr.Idx) :
    (dot_S512x1910_S1910x1910_S512x1910_1_0_0_1_n_n.rhsIdx i q 1).val = (i 1).val := by
  unfold DotDims.rhsIdx
  rw [dif_neg (show ¬(1 : Fin S1910x1910.rank) ∈ dot_S512x1910_S1910x1910_S512x1910_1_0_0_1_n_n.rhsBatch by decide),
    dif_pos (show (1 : Fin S1910x1910.rank) ∈ dot_S512x1910_S1910x1910_S512x1910_1_0_0_1_n_n.rhsNonContracting by decide)]
  rfl

/-- The contraction of the body's matrix product, read at one element: the sum over `k` of the row's entry `k` times
    the matrix's entry `(k, n)`. -/
theorem product_at (l : FVec Ideal S512x1910 .bf16) (w : FVec Ideal S1910x1910 .bf16) (r : Fin 512) (n : Fin 1910) :
    FloatOps.matmul dot_S512x1910_S1910x1910_S512x1910_1_0_0_1_n_n none l w (constant S512x1910 .f32 0x00000000#32) (ix2 r n)
      = ∑ k : Fin 1910, l (ix2 r k) * w (ix2 k n) := by
  rw [Ideal.matmul_constant_zero_apply,
    ← Equiv.sum_comp (ValueIdx.contrEquiv1 dot_S512x1910_S1910x1910_S512x1910_1_0_0_1_n_n 1910 rfl rfl).symm]
  refine Finset.sum_congr rfl fun k _ => ?_
  have hk := ValueIdx.contrEquiv1_symm_val dot_S512x1910_S1910x1910_S512x1910_1_0_0_1_n_n 1910 rfl rfl k
  have el : dot_S512x1910_S1910x1910_S512x1910_1_0_0_1_n_n.lhsIdx (ix2 r n)
      ((ValueIdx.contrEquiv1 dot_S512x1910_S1910x1910_S512x1910_1_0_0_1_n_n 1910 rfl rfl).symm k) = ix2 r k :=
    funext fun a => Fin.ext (by
      match a with
      | ⟨0, _⟩ => exact lhs_row _ _
      | ⟨1, _⟩ => exact (lhs_col _ _).trans hk)
  have er : dot_S512x1910_S1910x1910_S512x1910_1_0_0_1_n_n.rhsIdx (ix2 r n)
      ((ValueIdx.contrEquiv1 dot_S512x1910_S1910x1910_S512x1910_1_0_0_1_n_n 1910 rfl rfl).symm k) = ix2 k n :=
    funext fun a => Fin.ext (by
      match a with
      | ⟨0, _⟩ => exact (rhs_row _ _).trans hk
      | ⟨1, _⟩ => exact rhs_col _ _)
  rw [el, er]

/-- The stored value at row `r` of the block and feature `n`. -/
theorem stored_at (xb : Vec Ideal S512x1910 .f32) (w : Vec Ideal S1910x1910 .bf16) (r : Fin 512) (n : Fin 1910) :
    k0_pay1 (F := Ideal) xb w (ix2 r n)
      = resScale * xb (ix2 r n) + prodScale * ∑ k : Fin 1910, xb (ix2 r k) * w (ix2 k n) := by
  unfold k0_pay1
  simp only [shapeCast_self]
  exact congrArg (fun s => resScale * xb (ix2 r n) + prodScale * s) (product_at xb w r n)

end Cert.KernelIdeal.BodyValue

end
-- ==== Proof.KernelBlocks.lean ====
/-
  From the grid's blocks to the whole output array.

  Grid point `t` (of 64) reads token rows `512·t … 512·t + 511` and the whole weight matrix, and writes back output
  rows `512·t … 512·t + 511`. What it writes back at row `r` of the block and feature `n` is the layer at token row
  `512·t + r` and feature `n` — a sum over the contracted axis that only reads that token row, which lies in the block.
  The 64 blocks of 512 rows cover all 32768 rows, so after the region the output array is the layer of the two staged
  arrays as the region found them.
-/
import proofs.«136527_j56650618634409_1_alg».proof.Proof.Gen.KernelIdeal.Frame
import proofs.«136527_j56650618634409_1_alg».proof.Proof.BodyValue
import proofs.«136527_j56650618634409_1_alg».proof.Proof.FfnSpec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.FfnSpec

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 points: the token rows' and the output's block index is `(t, 0)`, the weight
    matrix's is `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := lt_of_lt_of_eq t.isLt N_0

/-- Row `r` of block `t` is token row `512·t + r`. -/
def rowOf (t : Fin cfg0.N) (r : Fin 512) : Fin 32768 :=
  ⟨t.val * 512 + r.val, by have := point_lt t; have := r.isLt; omega⟩

/-- The token rows' block at point `t`, read at `(r, k)`: the staged array at `(512·t + r, k)`. -/
theorem rows_block (c : Dev nD) (t : Fin cfg0.N) (r : Fin 512) (k : Fin 1910) :
    iblk m c 0 t (ix2 r k) = V m c (Pipeline.arrRef spec0 0) (ix2 (rowOf t r) k) := by
  unfold iblk
  generalize V m c (Pipeline.arrRef spec0 0) = X
  show X (((cfg0.win 0).blk t).view.emb (ix2 r k)) = X (ix2 (rowOf t r) k)
  obtain ⟨e0, e1, -, -, -, -⟩ := block_indices t
  have h : ((cfg0.win 0).blk t).view.emb (ix2 r k) = ix2 (rowOf t r) k := by
    funext a; apply Fin.ext
    match a with
    | ⟨0, _⟩ => show win0_0.index t (0 : Fin 2) * 512 + 1 * r.val = t.val * 512 + r.val; omega
    | ⟨1, _⟩ => show win0_0.index t (1 : Fin 2) * 1910 + 1 * k.val = k.val; omega
  rw [h]

/-- Element `(k, n)` of the weight matrix's block, at every point, is element `(k, n)` of the matrix: the block is
    the whole matrix. -/
theorem weights_elem (t : Fin cfg0.N) (k n : Fin 1910) :
    ((cfg0.win 1).blk t).view.emb (ix2 k n) = ix2 k n := by
  obtain ⟨-, -, e2, e3, -, -⟩ := block_indices t
  funext a; apply Fin.ext
  match a with
  | ⟨0, _⟩ => show win0_1.index t (0 : Fin 2) * 1910 + 1 * k.val = k.val; omega
  | ⟨1, _⟩ => show win0_1.index t (1 : Fin 2) * 1910 + 1 * n.val = n.val; omega

/-- The weight matrix's block at every point is the whole staged matrix. -/
theorem weights_block (c : Dev nD) (t : Fin cfg0.N) (k n : Fin 1910) :
    iblk m c 1 t (ix2 k n) = V m c (Pipeline.arrRef spec0 1) (ix2 k n) := by
  unfold iblk
  generalize V m c (Pipeline.arrRef spec0 1) = W
  rw [View.read_apply, weights_elem t k n]
  exact eq_of_heq (cast_heq _ _)

/-- Element `(r, n)` of the output's block at point `t` is element `(512·t + r, n)` of the output array. -/
theorem out_elem (t : Fin cfg0.N) (r : Fin 512) (n : Fin 1910) :
    ((cfg0.win 2).blk t).view.emb (ix2 r n) = ix2 (rowOf t r) n := by
  obtain ⟨-, -, -, -, e4, e5⟩ := block_indices t
  funext a; apply Fin.ext
  match a with
  | ⟨0, _⟩ => show win0_2.index t (0 : Fin 2) * 512 + 1 * r.val = t.val * 512 + r.val; omega
  | ⟨1, _⟩ => show win0_2.index t (1 : Fin 2) * 1910 + 1 * n.val = n.val; omega

/-- WHAT POINT `t` WRITES BACK is block `t` of the layer of the two staged arrays. -/
theorem flushed_eq (c : Dev nD) (t : Fin cfg0.N) :
    (dats m 0 c).flushed 2 t
      = ((cfg0.win 2).blk t).view.read (Elt Ideal)
          (ffn (V m c (Pipeline.arrRef spec0 0)) (V m c (Pipeline.arrRef spec0 1))) := by
  show (cfg0.win 2).cut (grid0.coords t) ((dats m 0 c).after 2 t) = _
  rw [after0_2]
  unfold out0_2
  rw [View.canon_unit_zero zero_offsets]
  simp only [View.ld_unit_zero (S := S512x1910) zero_offsets, View.ld_unit_zero (S := S1910x1910) zero_offsets]
  have hx : ∀ (r : Fin 512) (k : Fin 1910),
      iblk m c 0 t (ix2 r k) = V m c (Pipeline.arrRef spec0 0) (ix2 (rowOf t r) k) := rows_block m c t
  have hw : ∀ (k n : Fin 1910), iblk m c 1 t (ix2 k n) = V m c (Pipeline.arrRef spec0 1) (ix2 k n) :=
    weights_block m c t
  generalize iblk m c 0 t = xb at hx ⊢
  generalize iblk m c 1 t = wb at hw ⊢
  generalize V m c (Pipeline.arrRef spec0 0) = X at hx ⊢
  generalize V m c (Pipeline.arrRef spec0 1) = W at hw ⊢
  funext j
  obtain ⟨r, n, rfl⟩ : ∃ (r : Fin 512) (n : Fin 1910), j = ix2 r n := ⟨j 0, j 1, eq_ix2 j⟩
  show k0_pay1 xb wb (ix2 r n) = ffn X W (((cfg0.win 2).blk t).view.emb (ix2 r n))
  rw [out_elem t r n, ffn_apply]
  refine (BodyValue.stored_at xb wb r n).trans ?_
  unfold ffnAt
  rw [hx r n]
  refine congrArg (fun s => resScale * X (ix2 (rowOf t r) n) + prodScale * s) ?_
  exact Finset.sum_congr rfl fun k _ => by rw [hx r k, hw k n]

/-- An index of the output array is in point `t`'s block iff each coordinate is in the block's range on its axis. -/
theorem mem_blk (t : Fin cfg0.N) (i : S32768x1910.Idx) :
    i ∈ ((cfg0.win 2).blk t).view.set ↔ ∀ a : Fin 2, win0_2.index t a * S512x1910.size a ≤ (i a).val
      ∧ (i a).val < win0_2.index t a * S512x1910.size a + S512x1910.size a := by
  show i ∈ ((View.whole main_v21).slice (win0_2.rect t)).set ↔ _
  rw [View.set_slice_whole, Rect.mem_set_unit]
  exact Iff.rfl

/-- Every output row is in the block of the point `row / 512`. -/
theorem covered (i : S32768x1910.Idx) :
    ∃ t : Fin cfg0.N, (cfg0.win 2).flush t = true ∧ i ∈ ((cfg0.win 2).blk t).view.set := by
  have hi0 : (i 0).val < 32768 := (i 0).isLt
  have hi1 : (i 1).val < 1910 := (i 1).isLt
  let t : Fin cfg0.N := ⟨(i 0).val / 512, lt_of_lt_of_eq (by omega : (i 0).val / 512 < 64) N_0.symm⟩
  obtain ⟨-, -, -, -, e4, e5⟩ := block_indices t
  have e4' : win0_2.index t (0 : Fin 2) = (i 0).val / 512 := e4
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1910 ≤ (i 1).val ∧ (i 1).val < win0_2.index t (1 : Fin 2) * 1910 + 1910
    omega

/-- THE OUTPUT ARRAY after the region: the layer of the staged token rows and the staged weight matrix. -/
theorem final (c : Dev nD) :
    (dats m 0 c).arrAt 2 cfg0.N = ffn (V m c (Pipeline.arrRef spec0 0)) (V m c (Pipeline.arrRef spec0 1)) :=
  (dats m 0 c).arrAt_eq_of_cover 2 _ (fun t _ => flushed_eq m c t) covered

end Cert.KernelIdeal.Blocks

end
-- ==== Proof.KernelOperands.lean ====
/-
  The two arrays the kernel program hands to its region, as functions of the program's arguments.

  The tokens [8, 4096, 1910] are reshaped to 32768 rows. The TRANSPOSED weight matrix is assembled directly: row 1 and
  row 0 of the pair table are taken (in that order), a negative index counts from the end (`i < 0 ? i + 1910 : i`),
  the two lists stand side by side as the table `[row 1 | row 0]`, the values are scatter-added into a zero matrix
  through it, and the result is narrowed to the matrix unit's input format (the identity on the extended reals).
-/
import proofs.«136527_j56650618634409_1_alg».proof.KernelIdeal
import proofs.«136527_j56650618634409_1_alg».proof.Proof.Gen.KernelIdeal

noncomputable section

namespace Cert.KernelIdeal.Operands

open Cert.KernelIdeal Cert.KernelIdeal.Gen Idealize.ShloMosaic

variable {F : FTy → Type} [FloatOps F]

/-- One row of the pair table, as a list of 2254649 indices. -/
def tableRow (x1 : IVec S2x2254649 32) (off : Fin 2 → Nat) (hs : S2x2254649.Slices off S1x2254649) : IVec S2254649 32 :=
  shapeCast S2254649 (extractStridedSlice S1x2254649 off x1 hs) shapeCasts_S1x2254649_S2254649

/-- A negative index counts from the end of the axis of extent 1910. -/
def wrapped (r : IVec S2254649 32) : IVec S2254649 32 :=
  select (cmpi .slt r (broadcastInDim S2254649 ![] bcast_S_S2254649 (constantI S_ 32 0#32)))
    (addi r (broadcastInDim S2254649 ![] bcast_S_S2254649 (constantI S_ 32 1910#32))) r

/-- A list of wrapped indices as one column of the table. -/
def column (r : IVec S2254649 32) : IVec S2254649x1 32 :=
  broadcastInDim S2254649x1 ![0] bcast_S2254649_S2254649x1_0 (wrapped r)

/-- The transposed weight matrix as the program assembles it: the values scattered into a zero matrix through the
    table `[row 1 | row 0]`, narrowed. -/
def weightsT (x1 : IVec S2x2254649 32) (x2 : FVec F S2254649 .f32) : FVec F S1910x1910 .bf16 :=
  truncf .bf16 (Host.scatterAdd scatter_S1910x1910_S2254649x2_S2254649_n_01_01_1
    (broadcastInDim S1910x1910 ![] bcast_S_S1910x1910 (constant S_ .f32 0x00000000#32))
    (concatenate S2254649x2 1 [⟨S2254649x1, column (tableRow x1 ![1, 0] slices_S2x2254649_S1x2254649_1_0)⟩,
      ⟨S2254649x1, column (tableRow x1 ![0, 0] slices_S2x2254649_S1x2254649_0_0)⟩] concatenates_S2254649x1_S2254649x1_S2254649x2_d1)
    x2) bitsLt_bf16_f32

/-- The tokens as 32768 rows. -/
def tokenRows (x0 : FVec F S8x4096x1910 .f32) : FVec F S32768x1910 .f32 :=
  shapeCast S32768x1910 x0 shapeCasts_S8x4096x1910_S32768x1910

end Cert.KernelIdeal.Operands

end
-- ==== Proof.KernelHost.lean ====
/-
  The host operations around the region, and the kernel program's run read as a value.

  The region finds, in its two input arrays, the reshaped tokens and the assembled transposed weight matrix (the host
  operations before it, read back). After the region one host operation reshapes the 32768 output rows back to
  [8, 4096, 1910]. So the program's result is the layer of those two arrays, reshaped.
-/
import proofs.«136527_j56650618634409_1_alg».proof.Proof.Gen.KernelIdeal.Frame
import proofs.«136527_j56650618634409_1_alg».proof.Proof.KernelBlocks
import proofs.«136527_j56650618634409_1_alg».proof.Proof.KernelOperands
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo
open Idealize.ShloMosaic.Pipeline (Dat)
open Cert.FfnSpec Cert.KernelIdeal.Operands

variable (m : (ℓ : Loc nD τ sig) → Buf (Elt Ideal) ℓ) (ρ : Dev nD → PrngReg)

/-- The region finds the token rows in its first operand's array, -/
theorem staged_rows (c : Dev nD) :
    V m c (Pipeline.arrRef spec0 0) = tokenRows (F := Ideal) (m ((c : Thread nD τ).loc main_arg0)) := by
  show StableHlo.after hostOps0 (fun b => m (c, b)) (Proc.devRef .tc main_v20) = _
  after_results_simp <;> rfl

set_option maxHeartbeats 2000000 in
/-- and the assembled transposed weights in its second operand's. -/
theorem staged_weights (c : Dev nD) :
    V m c (Pipeline.arrRef spec0 1)
      = weightsT (F := Ideal) (m ((c : Thread nD τ).loc main_arg1)) (m ((c : Thread nD τ).loc main_arg2)) := by
  show StableHlo.after hostOps0 (fun b => m (c, b)) (Proc.devRef .tc main_v19) = _
  after_results_simp <;> rfl

/-- The one host operation after the region reshapes the output rows: the program's result is the layer, reshaped. -/
theorem result_eq (c : Dev nD) :
    Pipeline.afterTail₀ cfgs (dats m) 0 (V0 m) [hostOps1] c main_v22
      = shapeCast S8x4096x1910 (ffn (V m c (Pipeline.arrRef spec0 0)) (V m c (Pipeline.arrRef spec0 1)))
          shapeCasts_S32768x1910_S8x4096x1910 := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v21)
      = ffn (V m c (Pipeline.arrRef spec0 0)) (V m c (Pipeline.arrRef spec0 1)) :=
    (Pipeline.withArrays_arr spec0 launch0.win.arr_inj c _ _ 2).trans (Blocks.final m c)
  rw [e]
  rfl

/-- THE KERNEL PROGRAM'S RUN, read: every weakly fair execution terminates with the result at the layer of the
    reshaped tokens and the assembled transposed weights, reshaped back, and the arguments unchanged. -/
theorem run : θ_run defs (onTc (τ := τ) (main (F := Ideal))) ⟨m, fun _ => 0, ρ⟩ fun r => ∀ c : Dev nD,
      r.2.mem ((c.tc : Thread nD τ).loc main_v22)
        = shapeCast S8x4096x1910 (ffn (tokenRows (F := Ideal) (m ((c.tc : Thread nD τ).loc main_arg0)))
            (weightsT (F := Ideal) (m ((c.tc : Thread nD τ).loc main_arg1)) (m ((c.tc : Thread nD τ).loc main_arg2))))
            shapeCasts_S32768x1910_S8x4096x1910
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v22 (Pipeline.mem_restRefs_of main_v22 (by decide) (by decide))).trans
        ((result_eq m c).trans (by rw [staged_rows m c, staged_weights m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HostValue

end
-- ==== Proof.RefLayer.lean ====
/-
  The reference's arithmetic is the layer: after its matrix product with the transposed weights, the reference
  scales the token rows by ρ, the product by π, and adds. Read at token row `r` and feature `n`, the product is the
  sum over `k` of the row's entry `k` times the transposed matrix's entry `(k, n)`, so the sum of the two scaled terms is
  the layer of the reshaped tokens and the transposed weight matrix.
-/
import proofs.«136527_j56650618634409_1_alg».proof.Proof.Gen.ReferenceIdeal.Read
import proofs.«136527_j56650618634409_1_alg».proof.Proof.FfnSpec
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Cert.FfnSpec

/-- The reference's sum of the two scaled terms is the layer of its reshaped tokens and its transposed weights. -/
theorem layer_eq (x0 : (⟨S8x4096x1910, .f32⟩ : BufTy).Contents (Elt Ideal)) (x1 : (⟨S2x2254649, .i32⟩ : BufTy).Contents (Elt Ideal))
    (x2 : (⟨S2254649, .f32⟩ : BufTy).Contents (Elt Ideal)) :
    val_main_v26 (F := Ideal) x0 x1 x2 = ffn (val_main_v19 (F := Ideal) x0) (val_main_v20 (F := Ideal) x1 x2) := by
  funext i
  obtain ⟨r, n, rfl⟩ : ∃ (r : Fin 32768) (n : Fin 1910), i = ix2 r n := ⟨i 0, i 1, eq_ix2 i⟩
  have el : ∀ k : Fin 1910, lidx_main_v21 (ix2 r n) k = ix2 r k := fun k => funext fun a => Fin.ext (by
    match a with
    | ⟨0, _⟩ => rfl
    | ⟨1, _⟩ => rfl)
  have er : ∀ k : Fin 1910, ridx_main_v21 (ix2 r n) k = ix2 k n := fun k => funext fun a => Fin.ext (by
    match a with
    | ⟨0, _⟩ => rfl
    | ⟨1, _⟩ => rfl)
  rw [val_main_v26_apply, val_main_v23_apply, val_main_v25_apply, val_main_v22_apply, val_main_v24_apply,
    val_main_cst_3_apply, val_main_cst_4_apply, val_main_v21_apply, ffn_apply]
  simp only [el, er]
  rfl

end Cert.ReferenceIdeal.RefValue

end
-- ==== Proof.CooTranspose.lean ====
/-
  Assembling a square matrix from coordinate-format entries, and its transpose.

  The accumulating scatter adds entry `n` of a list of values to the element of a 1910 × 1910 matrix whose
  (row, column) pair is row `n` of a two-column table of signed integers; a pair outside the matrix is dropped.
  At the extended reals the result at an element is the element's old value plus the sum of the entries that
  land on it, so it depends only on WHICH entries land where. Entry `n` lands on `(a, b)` under the table
  `[q | p]` exactly when it lands on `(b, a)` under the table with the two columns exchanged, `[p | q]`
  (the matrix is square, so a pair is inside it exactly when the exchanged pair is). Hence scattering into a
  constant matrix through `[q | p]` gives the transpose of scattering through `[p | q]`.
-/
import Idealize.ShloMosaic.PureOps.Ideal
import Idealize.ShloMosaic.Lib.ValueIdx
import Idealize.ShloMosaic.Lib.Pipeline.Value

noncomputable section

open scoped BigOperators

namespace Cert.CooTranspose

open Idealize.ShloMosaic Idealize.ShloMosaic.ValueIdx

/-- The matrix. -/
abbrev SW : Shape := ⟨2, ![1910, 1910]⟩
/-- The table of (row, column) pairs, one per entry. -/
abbrev SI : Shape := ⟨2, ![2254649, 2]⟩
/-- One column of the table. -/
abbrev SC : Shape := ⟨2, ![2254649, 1]⟩
/-- The entries' values. -/
abbrev SU : Shape := ⟨1, ![2254649]⟩

/-- The scatter's dimension numbers: every entry a single element, its start the pair read along the table's
    second axis, both matrix axes addressed in order. -/
abbrev coo (h : ScatterDims.WF SW SI SU [] [0, 1] [0, 1] 1) : ScatterDims SW SI SU := ⟨[], [0, 1], [0, 1], 1, h⟩

variable (h : ScatterDims.WF SW SI SU [] [0, 1] [0, 1] 1)

/-! ## Where entry `n` lands -/

/-- Component 0 of entry `n`'s start is read at `(n, 0)` of the table, -/
theorem siIdx_zero (n : Fin 2254649) : (coo h).siIdx (ix1 n) ⟨0, (by show 0 < 2; omega)⟩ = ix2 n (0 : Fin 2) := by
  funext b
  match b with
  | ⟨0, _⟩ => rfl
  | ⟨1, _⟩ => rfl

/-- and component 1 at `(n, 1)`. -/
theorem siIdx_one (n : Fin 2254649) : (coo h).siIdx (ix1 n) ⟨1, (by show 1 < 2; omega)⟩ = ix2 n (1 : Fin 2) := by
  funext b
  match b with
  | ⟨0, _⟩ => rfl
  | ⟨1, _⟩ => rfl

theorem start_zero (n : Fin 2254649) (idx : IVec SI 32) :
    (coo h).start (ix1 n) idx 0 = (idx (ix2 n (0 : Fin 2))).toInt := by
  unfold ScatterDims.start
  rw [dif_pos (show (0 : Fin 2) ∈ [(0 : Fin 2), 1] by decide)]
  exact congrArg (fun k => (idx k).toInt) (siIdx_zero h n)

theorem start_one (n : Fin 2254649) (idx : IVec SI 32) :
    (coo h).start (ix1 n) idx 1 = (idx (ix2 n (1 : Fin 2))).toInt := by
  unfold ScatterDims.start
  rw [dif_pos (show (1 : Fin 2) ∈ [(0 : Fin 2), 1] by decide)]
  exact congrArg (fun k => (idx k).toInt) (siIdx_one h n)

/-- An entry is one element: no window coordinate on either axis. -/
theorem window_eq (j : SU.Idx) (a : Fin 2) : (coo h).window j a = 0 := by
  unfold ScatterDims.window
  rw [dif_neg (show a ∉ Shape.kept SW [0, 1] from (by decide : ∀ a : Fin 2, a ∉ Shape.kept SW [0, 1]) a)]

/-- Entry `n` lands on element `(a, b)` exactly when its pair, read signed, is `(a, b)`. -/
theorem lands_iff (n : Fin 2254649) (idx : IVec SI 32) (a b : Fin 1910) :
    (coo h).resultIdx? (ix1 n) idx = some (ix2 a b) ↔
      (idx (ix2 n (0 : Fin 2))).toInt = (a.val : ℤ) ∧ (idx (ix2 n (1 : Fin 2))).toInt = (b.val : ℤ) := by
  have ha : a.val < 1910 := a.isLt
  have hb : b.val < 1910 := b.isLt
  unfold ScatterDims.resultIdx?
  by_cases hin : ∀ c, 0 ≤ (coo h).start (ix1 n) idx c + (coo h).window (ix1 n) c
      ∧ (coo h).start (ix1 n) idx c + (coo h).window (ix1 n) c < SW.size c
  · rw [dif_pos hin, Option.some.injEq]
    have b0 := hin 0
    have b1 := hin 1
    rw [window_eq, start_zero] at b0
    rw [window_eq, start_one] at b1
    constructor
    · intro e
      have e0 : ((coo h).start (ix1 n) idx 0 + ((coo h).window (ix1 n) 0 : ℕ)).toNat = a.val :=
        congrArg Fin.val (congrFun e 0)
      have e1 : ((coo h).start (ix1 n) idx 1 + ((coo h).window (ix1 n) 1 : ℕ)).toNat = b.val :=
        congrArg Fin.val (congrFun e 1)
      rw [window_eq, start_zero] at e0
      rw [window_eq, start_one] at e1
      constructor <;> omega
    · rintro ⟨e0, e1⟩
      funext c
      apply Fin.ext
      match c with
      | ⟨0, _⟩ =>
        show ((coo h).start (ix1 n) idx 0 + ((coo h).window (ix1 n) 0 : ℕ)).toNat = a.val
        rw [window_eq, start_zero]; omega
      | ⟨1, _⟩ =>
        show ((coo h).start (ix1 n) idx 1 + ((coo h).window (ix1 n) 1 : ℕ)).toNat = b.val
        rw [window_eq, start_one]; omega
  · rw [dif_neg hin]
    constructor
    · intro e; cases e
    · rintro ⟨e0, e1⟩
      exfalso
      apply hin
      intro c
      match c with
      | ⟨0, _⟩ =>
        show 0 ≤ (coo h).start (ix1 n) idx 0 + ((coo h).window (ix1 n) 0 : ℕ)
          ∧ (coo h).start (ix1 n) idx 0 + ((coo h).window (ix1 n) 0 : ℕ) < (1910 : ℕ)
        rw [window_eq, start_zero]; omega
      | ⟨1, _⟩ =>
        show 0 ≤ (coo h).start (ix1 n) idx 1 + ((coo h).window (ix1 n) 1 : ℕ)
          ∧ (coo h).start (ix1 n) idx 1 + ((coo h).window (ix1 n) 1 : ℕ) < (1910 : ℕ)
        rw [window_eq, start_one]; omega

/-! ## The two-column table -/

/-- Row `n` of the table `[p | q]` starts with `p`'s entry `n` -/
theorem table_fst (p q : IVec SC 32) (hc : Shape.Concatenates [SC, SC] SI 1) (n : Fin 2254649) :
    concatenate SI 1 [⟨SC, p⟩, ⟨SC, q⟩] hc (ix2 n (0 : Fin 2)) = p (ix2 n (0 : Fin 1)) :=
  concatenate_pair_apply_left (t := SI) (s₁ := SC) (s₂ := SC) (1 : Fin 2) p q hc (ix2 n (0 : Fin 2)) rfl
    (ix2 n (0 : Fin 1)) (fun c => match c with
    | ⟨0, _⟩ => rfl
    | ⟨1, _⟩ => rfl)

/-- and ends with `q`'s. -/
theorem table_snd (p q : IVec SC 32) (hc : Shape.Concatenates [SC, SC] SI 1) (n : Fin 2254649) :
    concatenate SI 1 [⟨SC, p⟩, ⟨SC, q⟩] hc (ix2 n (1 : Fin 2)) = q (ix2 n (0 : Fin 1)) :=
  concatenate_pair_apply_right (t := SI) (s₁ := SC) (s₂ := SC) (1 : Fin 2) p q hc (ix2 n (1 : Fin 2)) rfl rfl
    (ix2 n (0 : Fin 1)) (fun c hc' => match c, hc' with
    | ⟨0, _⟩, _ => rfl
    | ⟨1, _⟩, hc' => absurd rfl hc') (by show 0 + 1 = 1; rfl)

/-! ## Exchanging the columns transposes the matrix -/

/-- Entry `n` lands on `(a, b)` through `[q | p]` exactly when it lands on `(b, a)` through `[p | q]`. -/
theorem lands_exchanged (p q : IVec SC 32) (hc : Shape.Concatenates [SC, SC] SI 1) (n : Fin 2254649) (a b : Fin 1910) :
    (coo h).resultIdx? (ix1 n) (concatenate SI 1 [⟨SC, q⟩, ⟨SC, p⟩] hc) = some (ix2 a b) ↔
      (coo h).resultIdx? (ix1 n) (concatenate SI 1 [⟨SC, p⟩, ⟨SC, q⟩] hc) = some (ix2 b a) := by
  rw [lands_iff, lands_iff, table_fst, table_snd, table_fst, table_snd]
  constructor <;> rintro ⟨e0, e1⟩ <;> exact ⟨e1, e0⟩

/-- The sums of the entries landing on `(a, b)` and on `(b, a)` under the two tables are one sum, so over a
    matrix that is the same at `(a, b)` and `(b, a)` the two scatters are transposes of each other. -/
theorem scatter_exchanged (x : SW.Idx → EReal) (p q : IVec SC 32)
    (hc : Shape.Concatenates [SC, SC] SI 1) (u : SU.Idx → EReal) (a b : Fin 1910) (hx : x (ix2 a b) = x (ix2 b a)) :
    Ideal.hostScatterAdd (coo h) x (concatenate SI 1 [⟨SC, q⟩, ⟨SC, p⟩] hc) u (ix2 a b)
      = Ideal.hostScatterAdd (coo h) x (concatenate SI 1 [⟨SC, p⟩, ⟨SC, q⟩] hc) u (ix2 b a) := by
  unfold Ideal.hostScatterAdd
  rw [← hx]
  refine congrArg (x (ix2 a b) + ·) (Finset.sum_congr (Finset.filter_congr fun j _ => ?_) fun _ _ => rfl)
  obtain ⟨n, rfl⟩ : ∃ n : Fin 2254649, j = ix1 n := ⟨j 0, eq_ix1 j⟩
  exact lands_exchanged h p q hc n a b

/-- THE LAW: the transpose of the matrix assembled through `[p | q]` from a constant matrix is the matrix
    assembled through `[q | p]`. -/
theorem transpose_assembled (hT : SW.Transposes [1, 0] SW) (x : FVec Ideal SW .f32) (hx : ∀ i i' : SW.Idx, x i = x i')
    (p q : IVec SC 32) (hc : Shape.Concatenates [SC, SC] SI 1) (u : FVec Ideal SU .f32) :
    transpose SW [1, 0] (Host.scatterAdd (F := Ideal) (coo h) x (concatenate SI 1 [⟨SC, p⟩, ⟨SC, q⟩] hc) u) hT
      = Host.scatterAdd (F := Ideal) (coo h) x (concatenate SI 1 [⟨SC, q⟩, ⟨SC, p⟩] hc) u := by
  funext i
  obtain ⟨a, b, rfl⟩ : ∃ (a b : Fin 1910), i = ix2 a b := ⟨i 0, i 1, eq_ix2 i⟩
  rw [transpose_apply [1, 0] _ hT (ix2 a b) (ix2 b a) (fun c => match c with
    | ⟨0, _⟩ => rfl
    | ⟨1, _⟩ => rfl)]
  exact (scatter_exchanged h x p q hc u a b (hx _ _)).symm

end Cert.CooTranspose

end
-- ==== Proof.Bridge.lean ====
/-
  The two programs hand the same two arrays to the layer.

  The reference scatters the values through the table `[row 0 | row 1]` and transposes the matrix; the kernel program
  scatters them through `[row 1 | row 0]`. By the exchange law for the accumulating scatter these are one matrix. The
  reshaped tokens are the same term on both sides.
-/
import proofs.«136527_j56650618634409_1_alg».proof.Proof.KernelOperands
import proofs.«136527_j56650618634409_1_alg».proof.Proof.CooTranspose
import proofs.«136527_j56650618634409_1_alg».proof.Proof.Gen.ReferenceIdeal.Read
import Idealize.ShloMosaic.Lib.ValueIdx

noncomputable section

namespace Cert.Bridge

open Idealize.ShloMosaic Idealize.ShloMosaic.ValueIdx
open Cert.KernelIdeal.Operands Cert.ReferenceIdeal.Read

/-- The reference's zero matrix is constant. -/
theorem zeros_const (i i' : Cert.ReferenceIdeal.S1910x1910.Idx) :
    val_main_v0 (F := Ideal) i = val_main_v0 (F := Ideal) i' :=
  (val_main_v0_apply i).trans (val_main_v0_apply i').symm

/-- The kernel program's assembled matrix is the reference's transposed matrix. -/
theorem weights_agree (x1 : IVec Cert.KernelIdeal.S2x2254649 32) (x2 : FVec Ideal Cert.KernelIdeal.S2254649 .f32) :
    weightsT (F := Ideal) x1 x2 = val_main_v20 (F := Ideal) x1 x2 := by
  have hd : Cert.KernelIdeal.scatter_S1910x1910_S2254649x2_S2254649_n_01_01_1
      = CooTranspose.coo Cert.ReferenceIdeal.Gen.scatter_S1910x1910_S2254649x2_S2254649_n_01_01_1_wf := rfl
  have hd' : Cert.ReferenceIdeal.scatter_S1910x1910_S2254649x2_S2254649_n_01_01_1
      = CooTranspose.coo Cert.ReferenceIdeal.Gen.scatter_S1910x1910_S2254649x2_S2254649_n_01_01_1_wf := rfl
  have hz : (broadcastInDim Cert.KernelIdeal.S1910x1910 ![] Cert.KernelIdeal.Gen.bcast_S_S1910x1910
      (constant (F := Ideal) Cert.KernelIdeal.S_ .f32 0x00000000#32)) = val_main_v0 (F := Ideal) := rfl
  have hq : column (tableRow x1 ![1, 0] Cert.KernelIdeal.Gen.slices_S2x2254649_S1x2254649_1_0) = val_main_v16 (F := Ideal) x1 := rfl
  have hp : column (tableRow x1 ![0, 0] Cert.KernelIdeal.Gen.slices_S2x2254649_S1x2254649_0_0) = val_main_v15 (F := Ideal) x1 := rfl
  unfold val_main_v20 val_main_v18 val_main_v17
  rw [hd', CooTranspose.transpose_assembled _ _ (val_main_v0 (F := Ideal)) zeros_const]
  unfold weightsT
  rw [hd, hz, hq, hp]
  exact funext fun i => ValueIdx.truncf_apply _ _ i

/-- The kernel program's token rows are the reference's. -/
theorem rows_agree (x0 : FVec Ideal Cert.KernelIdeal.S8x4096x1910 .f32) :
    tokenRows (F := Ideal) x0 = val_main_v19 (F := Ideal) x0 := rfl

end Cert.Bridge

end
-- ==== Proof.lean ====
/-
  The certificate of the feed-forward kernel against its reference.

  Both programs compute, over the extended reals,

      out[r, n] = ρ · x[r, n] + π · Σ_k x[r, k] · W[n, k]

  for the 32768 token rows `x` (the argument [8, 4096, 1910] reshaped) and the 1910 × 1910 matrix `W` assembled from
  coordinate-format entries by an accumulating scatter (entries on one element add up; a pair outside the matrix is
  dropped; a negative index counts from the end).

  The reference scatters through the table `[row | column]`, transposes the matrix and multiplies on the host. The
  kernel program scatters through the exchanged table `[column | row]`, which assembles the transposed matrix at once
  (Proof/CooTranspose.lean: exchanging the table's columns transposes the assembled matrix — the one law that joins
  the two sides; it uses only that sums over the same set of entries are equal, so no finiteness of the inputs), and
  multiplies block by block on the matrix unit: 64 grid points of 512 token rows each against the whole matrix
  (Proof/BodyValue.lean: what the body stores; Proof/KernelBlocks.lean: the blocks tile the output;
  Proof/KernelHost.lean: the host operations around the region). The two scale words ρ and π are the same words in
  both programs, and a narrowing to the matrix unit's input format is the identity on the extended reals.

  The ideal pass rewrote nothing, so the idealization's soundness claim is `True`. The three frames are the
  generated ones; the reference's is its generated run with the result dropped.
-/
import proofs.«136527_j56650618634409_1_alg».proof.Defs
import proofs.«136527_j56650618634409_1_alg».proof.Proof.Gen.Kernel
import proofs.«136527_j56650618634409_1_alg».proof.Proof.Gen.Kernel.Skeleton
import proofs.«136527_j56650618634409_1_alg».proof.Proof.Gen.Kernel.Launch
import proofs.«136527_j56650618634409_1_alg».proof.Proof.Gen.Kernel.Points
import proofs.«136527_j56650618634409_1_alg».proof.Proof.Gen.Kernel.Frame
import proofs.«136527_j56650618634409_1_alg».proof.Proof.Gen.KernelIdeal
import proofs.«136527_j56650618634409_1_alg».proof.Proof.Gen.KernelIdeal.Skeleton
import proofs.«136527_j56650618634409_1_alg».proof.Proof.Gen.KernelIdeal.Launch
import proofs.«136527_j56650618634409_1_alg».proof.Proof.Gen.KernelIdeal.Points
import proofs.«136527_j56650618634409_1_alg».proof.Proof.Gen.KernelIdeal.Frame
import proofs.«136527_j56650618634409_1_alg».proof.Proof.Gen.ReferenceIdeal
import proofs.«136527_j56650618634409_1_alg».proof.Proof.Gen.ReferenceIdeal.Run
import proofs.«136527_j56650618634409_1_alg».proof.Proof.Gen.ReferenceIdeal.Read
import proofs.«136527_j56650618634409_1_alg».proof.Proof.Gen.Pre_finite_inputs
import proofs.«136527_j56650618634409_1_alg».proof.Proof.KernelHost
import proofs.«136527_j56650618634409_1_alg».proof.Proof.RefLayer
import proofs.«136527_j56650618634409_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the layer of the reshaped tokens and the transposed
    weight matrix, reshaped back: the kernel program by its run read as a value, the reference by its generated run,
    its arithmetic read as the layer and its transposed matrix identified with the kernel program's. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _ _).trans ?_
  unfold Cert.ReferenceIdeal.Read.val_main_v27
  rw [Cert.ReferenceIdeal.RefValue.layer_eq, (hagree c).1, (hagree c).2.1, (hagree c).2.2,
    ← Cert.Bridge.weights_agree, ← Cert.Bridge.rows_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
